-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S10000x512 .f32) (main_arg1 : FVec F S10000x10000 .f32) (main_arg2 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S10000x512 : Shape := ⟨2, ![10000, 512]⟩
abbrev S10000x10000 : Shape := ⟨2, ![10000, 10000]⟩
abbrev S512x512 : Shape := ⟨2, ![512, 512]⟩
abbrev S512x10000 : Shape := ⟨2, ![512, 10000]⟩

abbrev nBuf : Space → Nat
  | .hbm => 4
  | .vmem => 6
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S10000x512, .f32⟩
  | .local _ .vmem, ⟨0, _⟩ => ⟨S512x10000, .f32⟩
  | .local _ .vmem, ⟨1, _⟩ => ⟨S512x10000, .f32⟩
  | .local _ .vmem, ⟨2, _⟩ => ⟨S10000x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x10000_S512x10000_0_0 : ∀ a, (![0, 0] : Fin 2 → Nat) a + S512x10000.size a ≤ S512x10000.size a
  h_S512x10000 : 0 < S512x10000.numel
  inb_S10000x512_S10000x512_0_0 : ∀ a, (![0, 0] : Fin 2 → Nat) a + S10000x512.size a ≤ S10000x512.size a
  h_S10000x512 : 0 < S10000x512.numel
  inb_S512x512_S512x512_0_0 : ∀ a, (![0, 0] : Fin 2 → Nat) a + S512x512.size a ≤ S512x512.size a
  h_S512x512 : 0 < S512x512.numel
  dot_S512x10000_S10000x512_S512x512_1_0_0_1_n_n_wf : DotDims.WF S512x10000 S10000x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x10000.size a < S10000x10000.size a
  hwx0_0 : ∀ i : grid0.Coords, EltTy.bits .f32 = 32 ∨ (Rect.unit (s := S10000x10000) (fun a => cc0_transform_0 i a * S512x10000.size a) (fun a => (Pipeline.Clip.of (cc0_transform_0 i a) (S512x10000.size a) (S10000x10000.size a)).extent (S512x10000.size a)) fun a => Pipeline.Clip.inb (Pipeline.Clip.ok_of (hstart0_0 i a))).WholeWords (EltTy.packing .f32)
  hwxs0_0 : ∀ i : grid0.Coords, EltTy.bits .f32 = 32 ∨ (Rect.unit (s := S512x10000) (fun _ => 0) (fun a => (Pipeline.Clip.of (cc0_transform_0 i a) (S512x10000.size a) (S10000x10000.size a)).extent (S512x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .f32 = 32 ∨ (Rect.block (s := S10000x512) S10000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x512.size a < S10000x512.size a
  hwx0_3 : ∀ i : grid0.Coords, EltTy.bits .f32 = 32 ∨ (Rect.unit (s := S10000x512) (fun a => cc0_transform_3 i a * S512x512.size a) (fun a => (Pipeline.Clip.of (cc0_transform_3 i a) (S512x512.size a) (S10000x512.size a)).extent (S512x512.size a)) fun a => Pipeline.Clip.inb (Pipeline.Clip.ok_of (hstart0_3 i a))).WholeWords (EltTy.packing .f32)
  hwxs0_3 : ∀ i : grid0.Coords, EltTy.bits .f32 = 32 ∨ (Rect.unit (s := S512x512) (fun _ => 0) (fun a => (Pipeline.Clip.of (cc0_transform_3 i a) (S512x512.size a) (S10000x512.size a)).extent (S512x512.size a)) fun a => (Nat.zero_add _).trans_le (Pipeline.Clip.extent_le (Pipeline.Clip.ok_of (hstart0_3 i a)))).WholeWords (EltTy.packing .f32)

variable [Facts₀]

def dot_S512x10000_S10000x512_S512x512_1_0_0_1_n_n : DotDims S512x10000 S10000x512 S512x512 where
  lhsContracting := [1]
  rhsContracting := [0]
  lhsNonContracting := [0]
  rhsNonContracting := [1]
  lhsBatch := []
  rhsBatch := []
  wf := dot_S512x10000_S10000x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpecClip (Memref.whole main_arg1) S512x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S512x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S10000x512, .f32⟩
  | .hbm, ⟨4, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.KernelBody.lean ====
/-
  The kernel body, run once on whole staging buffers.

  One grid point of the graph-convolution kernel loads a strip of 512 rows of the adjacency matrix, the whole
  feature matrix and the whole weight matrix, multiplies the strip by the features, multiplies that product by the
  weights, and stores the 512 x 512 result into the output's staging buffer.  The three input buffers are left as
  they were found; the output buffer ends holding the two-fold product of what the input buffers held.
-/
import proofs.«143572_g10479720203009_week1_w2_262_18_alg».proof.Proof.Gen.Kernel.Frame
import proofs.«143572_g10479720203009_week1_w2_262_18_alg».proof.Proof.Gen.Kernel.Skeleton
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-- The zero offsets of a whole-buffer access, as the constant function. -/
theorem off_zero : (![0, 0] : Fin 2 → Nat) = fun _ => 0 := funext fun a => by fin_cases a <;> rfl

set_option maxHeartbeats 1000000 in
/-- On whole staging buffers holding `x0` (a strip of adjacency rows), `x1` (the features) and `x2` (the weights),
    the output's buffer holding anything, the body runs to the end, leaves the three inputs as they were and the
    output's buffer at `(x0 · x1) · x2`, the body's one stored value. -/
theorem body_run (c : Dev nD) (E : Set ℕ) (i : grid0.Coords)
    (arg1 : Memref sig .tc .vmem S512x10000 .f32) (harg1 : arg1.IsWhole)
    (arg2 : Memref sig .tc .vmem S10000x512 .f32) (harg2 : arg2.IsWhole)
    (arg3 : Memref sig .tc .vmem S512x512 .f32) (harg3 : arg3.IsWhole)
    (arg4 : Memref sig .tc .vmem S512x512 .f32) (harg4 : arg4.IsWhole)
    (x0 : Vec F S512x10000 .f32) (x1 : Vec F S10000x512 .f32) (x2 : Vec F S512x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E
          (cc0__gcn_kernel i arg1 harg1 arg2 harg2 arg3 harg3 arg4 harg4) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero off_zero Facts₀.inb_S512x512_S512x512_0_0 y⟩),
    View.canon_unit_zero off_zero]
  simp only [View.readAt_eq_ld]
  rw [View.ld_unit_zero (S := S512x10000) off_zero, View.ld_unit_zero (S := S10000x512) off_zero,
    View.ld_unit_zero (S := S512x512) off_zero]

end Cert.Kernel.Hand

end
-- ==== Proof.KernelFrame.lean ====
/-
  The frame of the kernel as printed: it runs to the end, nothing faults, and the three argument arrays end as
  they began.

  The grid has twenty points; point `t` works on rows `512 t` to `512 t + 511` of the adjacency matrix and of the
  result.  Ten thousand is not a multiple of 512: the last strip has only 272 rows inside the arrays, and the
  staging buffer's remaining 240 rows hold words nothing names.  The body multiplies them along with the rest, so
  what it leaves in the result's staging buffer is stated only as "some contents": for the frame nothing more is
  needed, the write-back being cut to the rows inside the array by the pipeline itself.  The features and the
  weights are fetched once and found again, unchanged, at every later point.
-/
import proofs.«143572_g10479720203009_week1_w2_262_18_alg».proof.Proof.KernelBody
import proofs.«143572_g10479720203009_week1_w2_262_18_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold after the body -/

/-- Of the result's staging buffer nothing is stated. -/
def unstated : Fin 4 → Bool := fun w => w.val == 3

/-- After the body at point `t`: the adjacency strip's buffer holds the strip's rows inside the array (filled out,
    past the array's end, with a word the proof picks and nothing reads), the features' and the weights' buffers
    hold the whole arrays, the result's buffer is not described.  The arrays are as the region finds them. -/
def stripData (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem arrays_eq (c : Dev nD) (w : Fin cfg0.W) : (stripData m 0 c).A w = V m c (Pipeline.arrRef spec0 w) := by
  dsimp only [stripData]

theorem after_adj (c : Dev nD) (t : Fin cfg0.N) :
    (stripData m 0 c).after 0 t = win0_0.fill (grid0.coords t) (fun _ => Scalar.ofBits .f32 0#32) (iblk m c 0 t) := by
  dsimp only [stripData]
theorem after_feat (c : Dev nD) (t : Fin cfg0.N) : (stripData m 0 c).after 1 t = iblk m c 1 t := by dsimp only [stripData]
theorem after_wts (c : Dev nD) (t : Fin cfg0.N) : (stripData m 0 c).after 2 t = iblk m c 2 t := by dsimp only [stripData]

/-! ## What the body finds -/

/-- The adjacency strip is fetched at every point: its buffer holds the strip's rows inside the array, and `d`
    (anything) on the rows past the array's end. -/
theorem found_adj (c : Dev nD) (t : Fin cfg0.N) (d) :
    (stripData m 0 c).before 0 t d = win0_0.fill (grid0.coords t) d (iblk m c 0 t) := by
  rw [(stripData m 0 c).before_fetched 0 t (fetch0_0 t)]
  unfold Dat.fetched Dat.blockOf iblk
  rw [arrays_eq]
/-- The features' buffer holds the whole feature matrix at every point, fetched there or not. -/
theorem found_feat (c : Dev nD) (t : Fin cfg0.N) (d) : (stripData m 0 c).before 1 t d = iblk m c 1 t :=
  before0_1_of m (stripData m 0 c) (arrays_eq m c 1) (after_feat m c) t d
/-- The weights' buffer likewise. -/
theorem found_wts (c : Dev nD) (t : Fin cfg0.N) (d) : (stripData m 0 c).before 2 t d = iblk m c 2 t :=
  before0_2_of m (stripData m 0 c) (arrays_eq m c 2) (after_wts m c) t d

/-! ## The body obligation -/

/-- What the body is called with at point `t`, window by window, -/
def bodyPre (c : Dev nD) (t : Fin cfg0.N) : sProp 𝕄 :=
  iprop((stripData m 0 c).Φ t.castSucc ∗ (stripData m 0 c).owesAt () t.castSucc
    ∗ (∃ d, owns (c : Thread nD τ) (st0_0 t) fullShare ((stripData m 0 c).before 0 t d))
    ∗ (∃ d, owns (c : Thread nD τ) (st0_1 t) fullShare ((stripData m 0 c).before 1 t d))
    ∗ (∃ d, owns (c : Thread nD τ) (st0_2 t) fullShare ((stripData m 0 c).before 2 t d))
    ∗ (∃ X, owns (c : Thread nD τ) (st0_3 t) fullShare X))

/-- and what it hands back: the strip's buffer stated on the rows inside the array only. -/
def bodyPost (c : Dev nD) (t : Fin cfg0.N) : sProp 𝕄 :=
  iprop((stripData m 0 c).Φ t.succ ∗ (stripData m 0 c).owesAt () t.succ
    ∗ (∃ d, owns (c : Thread nD τ) (st0_0 t) fullShare
        ((cfg0.win 0).fill (cfg0.grid.coords t) d ((cfg0.win 0).cut (cfg0.grid.coords t) ((stripData m 0 c).after 0 t))))
    ∗ owns (c : Thread nD τ) (st0_1 t) fullShare ((stripData m 0 c).after 1 t)
    ∗ owns (c : Thread nD τ) (st0_2 t) fullShare ((stripData m 0 c).after 2 t)
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_adj, found_feat, found_wts]
  rw [show (stripData m 0 c).Φ t.succ = (stripData m 0 c).Φ t.castSucc from rfl,
    show (stripData m 0 c).owesAt () t.succ = (stripData m 0 c).owesAt () t.castSucc from rfl,
    after_adj, after_feat, after_wts]
  iintro ⟨HΦ, Ho, ⟨%d0, H0⟩, ⟨%d1, H1⟩, ⟨%d2, H2⟩, ⟨%d3, H3⟩⟩
  iapply (body_run (F := F) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    rw [show (cfg0.win 0).cut (cfg0.grid.coords t) (win0_0.fill (grid0.coords t) (fun _ => Scalar.ofBits .f32 0#32) (iblk m c 0 t))
      = iblk m c 0 t from win0_0.cut_fill _ _ _]
    iexact H0
  isplitl [H1]; · iexact H1
  isplitl [H2]; · iexact H2
  iexists _; iexact H3

theorem body_obligation (c : Dev nD) :
    BodyObligationLoose (stripData (F := F) m 0 c) (defs₀ (F := F)) Variants.none () Set.univ unstated := fun t => by
  rw [bigSep_W0, bigSep_W0]
  exact sound_body m c t

/-! ## The run and the frame -/

set_option backward.isDefEq.respectTransparency.types false in
/-- Every weakly fair execution of @main terminates; every input array of the pipeline ends unchanged. -/
theorem run_main : θ_run defs (onTc (τ := τ) (main (F := F))) (s₀ m ρ)
    (Pipeline.RDat.FramePost (cfgs 0) (fun c => (stripData m 0 c).toRForget unstated) (V m)) :=
  Pipeline.RDat.θ_run_frame cfgs (0 : Fin 1) launch0 defs₀ Variants.none (fun c => (stripData m 0 c).toRForget unstated) m ρ main
    (hbody := fun c => (body_obligation m c).toRForget)
    (hshare := fun c => ((stripData m 0 c).toRForget unstated).share_full fun _ => rfl)
    (howed := fun _ _ => rfl) (V := V m) (hmain := hmain m Variants.none) (hA := arrays_eq m) (hΦ := fun _ _ => rfl)

/-- The frame, at any reading of the floats: the three arguments end as they began (an input array is never
    written by the pipeline). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((stripData m 0 c).toRForget unstated).ArrAt_in 1 rfl _) _) ((h c).1 1)).trans
        ((arrays_eq m c 1).trans (V_main_arg0 m c)),
      (Eq.mp (congrFun (((stripData m 0 c).toRForget unstated).ArrAt_in 0 rfl _) _) ((h c).1 0)).trans
        ((arrays_eq m c 0).trans (V_main_arg1 m c)),
      (Eq.mp (congrFun (((stripData m 0 c).toRForget unstated).ArrAt_in 2 rfl _) _) ((h c).1 2)).trans
        ((arrays_eq m c 2).trans (V_main_arg2 m c))⟩) (run_main m ρ)

end Cert.Kernel.Hand

end
-- ==== Proof.KernelIdealBody.lean ====
/-
  The kernel body, run once on whole staging buffers.

  One grid point of the graph-convolution kernel loads a strip of 512 rows of the adjacency matrix, the whole
  feature matrix and the whole weight matrix, multiplies the strip by the features, multiplies that product by the
  weights, and stores the 512 x 512 result into the output's staging buffer.  The three input buffers are left as
  they were found; the output buffer ends holding the two-fold product of what the input buffers held.
-/
import proofs.«143572_g10479720203009_week1_w2_262_18_alg».proof.Proof.Gen.KernelIdeal.Frame
import proofs.«143572_g10479720203009_week1_w2_262_18_alg».proof.Proof.Gen.KernelIdeal.Skeleton
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-- The zero offsets of a whole-buffer access, as the constant function. -/
theorem off_zero : (![0, 0] : Fin 2 → Nat) = fun _ => 0 := funext fun a => by fin_cases a <;> rfl

set_option maxHeartbeats 1000000 in
/-- On whole staging buffers holding `x0` (a strip of adjacency rows), `x1` (the features) and `x2` (the weights),
    the output's buffer holding anything, the body runs to the end, leaves the three inputs as they were and the
    output's buffer at `(x0 · x1) · x2`, the body's one stored value. -/
theorem body_run (c : Dev nD) (E : Set ℕ) (i : grid0.Coords)
    (arg1 : Memref sig .tc .vmem S512x10000 .f32) (harg1 : arg1.IsWhole)
    (arg2 : Memref sig .tc .vmem S10000x512 .f32) (harg2 : arg2.IsWhole)
    (arg3 : Memref sig .tc .vmem S512x512 .f32) (harg3 : arg3.IsWhole)
    (arg4 : Memref sig .tc .vmem S512x512 .f32) (harg4 : arg4.IsWhole)
    (x0 : Vec F S512x10000 .f32) (x1 : Vec F S10000x512 .f32) (x2 : Vec F S512x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E
          (cc0__gcn_kernel i arg1 harg1 arg2 harg2 arg3 harg3 arg4 harg4) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero off_zero Facts₀.inb_S512x512_S512x512_0_0 y⟩),
    View.canon_unit_zero off_zero]
  simp only [View.readAt_eq_ld]
  rw [View.ld_unit_zero (S := S512x10000) off_zero, View.ld_unit_zero (S := S10000x512) off_zero,
    View.ld_unit_zero (S := S512x512) off_zero]

end Cert.KernelIdeal.Hand

end
-- ==== Proof.KernelIdealPayload.lean ====
/-
  The body's stored value, entry by entry, over the extended reals.

  The body multiplies the 512 x 10000 strip `x0` by the 10000 x 512 features `x1` into a zero accumulator, and the
  512 x 512 product by the 512 x 512 weights `x2` into another.  With exact arithmetic a matrix product into zero is the
  plain sum of products over the contracted axis, so entry `(p, q)` of the stored value is
  `∑ k', (∑ k, x0 p k * x1 k k') * x2 k' q`: row `p` of the result depends on row `p` of the strip and on no other row.
-/
import proofs.«143572_g10479720203009_week1_w2_262_18_alg».proof.Proof.Gen.KernelIdeal.Skeleton
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

/-! ## Where the two products read their operands -/

theorem strip_lhs_row (i : S512x512.Idx) (q : dot_S512x10000_S10000x512_S512x512_1_0_0_1_n_n.contr.Idx) : (dot_S512x10000_S10000x512_S512x512_1_0_0_1_n_n.lhsIdx i q 0).val = (i 0).val := by
  unfold DotDims.lhsIdx
  rw [dif_neg (show ¬(0 : Fin S512x10000.rank) ∈ dot_S512x10000_S10000x512_S512x512_1_0_0_1_n_n.lhsBatch by decide),
    dif_pos (show (0 : Fin S512x10000.rank) ∈ dot_S512x10000_S10000x512_S512x512_1_0_0_1_n_n.lhsNonContracting by decide)]
  rfl
theorem strip_lhs_col (i : S512x512.Idx) (q : dot_S512x10000_S10000x512_S512x512_1_0_0_1_n_n.contr.Idx) : (dot_S512x10000_S10000x512_S512x512_1_0_0_1_n_n.lhsIdx i q 1).val = (q ⟨0, by decide⟩).val :=
  dot_S512x10000_S10000x512_S512x512_1_0_0_1_n_n.lhsIdx_val_of_single rfl i q
theorem strip_rhs_row (i : S512x512.Idx) (q : dot_S512x10000_S10000x512_S512x512_1_0_0_1_n_n.contr.Idx) : (dot_S512x10000_S10000x512_S512x512_1_0_0_1_n_n.rhsIdx i q 0).val = (q ⟨0, by decide⟩).val :=
  dot_S512x10000_S10000x512_S512x512_1_0_0_1_n_n.rhsIdx_val_of_single rfl i q
theorem strip_rhs_col (i : S512x512.Idx) (q : dot_S512x10000_S10000x512_S512x512_1_0_0_1_n_n.contr.Idx) : (dot_S512x10000_S10000x512_S512x512_1_0_0_1_n_n.rhsIdx i q 1).val = (i 1).val := by
  unfold DotDims.rhsIdx
  rw [dif_neg (show ¬(1 : Fin S10000x512.rank) ∈ dot_S512x10000_S10000x512_S512x512_1_0_0_1_n_n.rhsBatch by decide),
    dif_pos (show (1 : Fin S10000x512.rank) ∈ dot_S512x10000_S10000x512_S512x512_1_0_0_1_n_n.rhsNonContracting by decide)]
  rfl

theorem proj_lhs_row (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem proj_lhs_col (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem proj_rhs_row (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem proj_rhs_col (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-! ## The two products at an entry -/

/-- The strip times the features: entry `(p, q)` is the sum over the ten thousand nodes `k` of `l p k * r k q`. -/
theorem strip_times_features (l : FVec Ideal S512x10000 .f32) (r : FVec Ideal S10000x512 .f32) (p q : Fin 512) :
    matmul (F := Ideal) dot_S512x10000_S10000x512_S512x512_1_0_0_1_n_n none l r (constant S512x512 .f32 0x00000000#32) (ix2 p q)
      = ∑ k : Fin 10000, l (ix2 p k) * r (ix2 k q) := by
  simp only [matmul]
  rw [Ideal.matmul_constant_zero_apply, ← Equiv.sum_comp (contrEquiv1 dot_S512x10000_S10000x512_S512x512_1_0_0_1_n_n 10000 rfl rfl).symm]
  refine Finset.sum_congr rfl fun k _ => ?_
  have hk := contrEquiv1_symm_val dot_S512x10000_S10000x512_S512x512_1_0_0_1_n_n 10000 rfl rfl k
  have el : dot_S512x10000_S10000x512_S512x512_1_0_0_1_n_n.lhsIdx (ix2 p q) ((contrEquiv1 dot_S512x10000_S10000x512_S512x512_1_0_0_1_n_n 10000 rfl rfl).symm k) = ix2 p k := funext fun a => Fin.ext (by
    match a with
    | ⟨0, _⟩ => exact strip_lhs_row _ _
    | ⟨1, _⟩ => exact (strip_lhs_col _ _).trans hk)
  have er : dot_S512x10000_S10000x512_S512x512_1_0_0_1_n_n.rhsIdx (ix2 p q) ((contrEquiv1 dot_S512x10000_S10000x512_S512x512_1_0_0_1_n_n 10000 rfl rfl).symm k) = ix2 k q := funext fun a => Fin.ext (by
    match a with
    | ⟨0, _⟩ => exact (strip_rhs_row _ _).trans hk
    | ⟨1, _⟩ => exact strip_rhs_col _ _)
  rw [el, er]

/-- A 512 x 512 block times the weights: entry `(p, q)` is the sum over the 512 features `k` of `l p k * r k q`. -/
theorem times_weights (l : FVec Ideal S512x512 .f32) (r : FVec Ideal S512x512 .f32) (p q : Fin 512) :
    matmul (F := Ideal) dot_S512x512_S512x512_S512x512_1_0_0_1_n_n none l r (constant S512x512 .f32 0x00000000#32) (ix2 p q)
      = ∑ k : Fin 512, l (ix2 p k) * r (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact proj_lhs_row _ _
    | ⟨1, _⟩ => exact (proj_lhs_col _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (proj_rhs_row _ _).trans hk
    | ⟨1, _⟩ => exact proj_rhs_col _ _)
  rw [el, er]

/-- The stored value at entry `(p, q)`. -/
theorem stored_entry (x0 : Vec Ideal S512x10000 .f32) (x1 : Vec Ideal S10000x512 .f32) (x2 : Vec Ideal S512x512 .f32) (p q : Fin 512) :
    k0_pay1 (F := Ideal) x0 x1 x2 (ix2 p q) = ∑ k' : Fin 512, (∑ k : Fin 10000, x0 (ix2 p k) * x1 (ix2 k k')) * x2 (ix2 k' q) := by
  unfold k0_pay1
  refine (times_weights _ x2 p q).trans ?_
  exact Finset.sum_congr rfl fun k' _ => congrArg (· * x2 (ix2 k' q)) (strip_times_features x0 x1 p k')

end Cert.KernelIdeal.Hand

end
-- ==== Proof.GraphConvLaw.lean ====
/-
  The graph-convolution layer as one function of its three arguments, in both groupings, and the law that joins them.

  With `A` the 10000 x 10000 adjacency matrix, `X` the 10000 x 512 features and `W` the 512 x 512 weights, the kernel
  computes `(A · X) · W` strip by strip and the reference `A · (X · W)`.  Entry `(r, q)` of the first is
  `∑ k', (∑ k, A r k * X k k') * W k' q`, of the second `∑ k, A r k * (∑ k', X k k' * W k' q)`.  Over the real numbers
  both are the double sum of `A r k * X k k' * W k' q`, by distributivity and exchanging the two finite sums.  Over
  the extended reals distributivity can fail at the infinities, so the law is stated for matrices whose entries are
  all real numbers — which is what the precondition grants.
-/
import Idealize.ShloMosaic.PureOps.Ideal
import Idealize.ShloMosaic.Lib.ValueIdx

noncomputable section

namespace Cert.GraphConv

open Idealize.ShloMosaic Idealize.ShloMosaic.ValueIdx

abbrev AdjShape : Shape := ⟨2, ![10000, 10000]⟩
abbrev FeatShape : Shape := ⟨2, ![10000, 512]⟩
abbrev WtShape : Shape := ⟨2, ![512, 512]⟩

/-- `(A · X) · W`, entry by entry: the kernel's grouping. -/
def stripFirst (adj : AdjShape.Idx → EReal) (x : FeatShape.Idx → EReal) (w : WtShape.Idx → EReal) : FeatShape.Idx → EReal :=
  fun i => ∑ k' : Fin 512, (∑ k : Fin 10000, adj (ix2 (i 0) k) * x (ix2 k k')) * w (ix2 k' (i 1))

/-- `A · (X · W)`, entry by entry: the reference's grouping. -/
def supportFirst (adj : AdjShape.Idx → EReal) (x : FeatShape.Idx → EReal) (w : WtShape.Idx → EReal) : FeatShape.Idx → EReal :=
  fun i => ∑ k : Fin 10000, adj (ix2 (i 0) k) * ∑ k' : Fin 512, x (ix2 k k') * w (ix2 k' (i 1))

/-- The inclusion of the reals in the extended reals commutes with finite sums. -/
theorem coe_finsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Matrix multiplication is associative on real entries: a row `a` times a matrix `b` times a column `c`, in either
    grouping, is the double sum of `a i * b i k * c k`. -/
theorem row_mat_col_assoc {ι κ : Type} [Fintype ι] [Fintype κ] (a : ι → ℝ) (b : ι → κ → ℝ) (c : κ → ℝ) :
    (∑ k, (∑ i, (a i : EReal) * (b i k : EReal)) * (c k : EReal))
      = ∑ i, (a i : EReal) * ∑ k, (b i k : EReal) * (c k : EReal) := by
  have hl : ∀ k, (∑ i, (a i : EReal) * (b i k : EReal)) * (c k : EReal) = (((∑ i, a i * b i k) * c k : ℝ) : EReal) := fun k => by
    rw [EReal.coe_mul, coe_finsum]; simp only [EReal.coe_mul]
  have hr : ∀ i, (a i : EReal) * ∑ k, (b i k : EReal) * (c k : EReal) = ((a i * ∑ k, b i k * c k : ℝ) : EReal) := fun i => by
    rw [EReal.coe_mul, coe_finsum]; simp only [EReal.coe_mul]
  simp only [hl, hr, ← coe_finsum]
  congr 1
  simp only [Finset.sum_mul, Finset.mul_sum]
  rw [Finset.sum_comm]
  exact Finset.sum_congr rfl fun i _ => Finset.sum_congr rfl fun k _ => by ring

/-- On matrices of real entries the two groupings are one function. -/
theorem stripFirst_eq_supportFirst (adj : AdjShape.Idx → EReal) (x : FeatShape.Idx → EReal) (w : WtShape.Idx → EReal)
    (hadj : ∀ i, ∃ r : ℝ, adj i = (r : EReal)) (hx : ∀ i, ∃ r : ℝ, x i = (r : EReal)) (hw : ∀ i, ∃ r : ℝ, w i = (r : EReal)) :
    stripFirst adj x w = supportFirst adj x w := by
  choose a ha using hadj
  choose b hb using hx
  choose c hc using hw
  funext i
  unfold stripFirst supportFirst
  simp only [ha, hb, hc]
  exact row_mat_col_assoc (fun k : Fin 10000 => a (ix2 (i 0) k)) (fun (k : Fin 10000) (k' : Fin 512) => b (ix2 k k'))
    (fun k' : Fin 512 => c (ix2 k' (i 1)))

end Cert.GraphConv

end
-- ==== Proof.KernelIdealValue.lean ====
/-
  What the idealized kernel leaves in the result array: `(A · X) · W`, all ten thousand rows.

  Point `t` of the grid handles rows `512 t` to `512 t + 511`.  The first nineteen strips lie inside the arrays; of
  the twentieth only 272 rows do, and both the fetch of the adjacency strip and the write-back of the result strip are
  cut to them.  Whatever the staging buffer's other 240 rows hold, row `p` of the body's product depends on row `p` of
  the strip only, so on the rows inside the array the stored block is the block of `(A · X) · W`, and those are the
  rows the write-back moves.  The twenty cut blocks cover the result array, which therefore ends holding
  `(A · X) · W` everywhere.
-/
import proofs.«143572_g10479720203009_week1_w2_262_18_alg».proof.Proof.KernelIdealBody
import proofs.«143572_g10479720203009_week1_w2_262_18_alg».proof.Proof.KernelIdealPayload
import proofs.«143572_g10479720203009_week1_w2_262_18_alg».proof.Proof.GraphConvLaw
import proofs.«143572_g10479720203009_week1_w2_262_18_alg».proof.Proof.Gen.KernelIdeal.Points
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.GraphConv Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The result, as one function of the arguments -/

/-- `(A · X) · W` of the argument arrays as the region finds them. -/
def layerOut (c : Dev nD) : Buf (Elt Ideal) ((c : Thread nD τ).loc main_v0) :=
  stripFirst (V m c main_arg1) (V m c main_arg0) (V m c main_arg2)

/-! ## The grid's geometry, decided once over its twenty points -/

/-- Point `t`'s strip of the adjacency matrix and of the result starts at block row `t`, column block 0. -/
theorem strip_index : ∀ t : Fin cfg0.N,
    win0_0.index t 0 = t.val ∧ win0_0.index t 1 = 0 ∧ win0_3.index t 0 = t.val ∧ win0_3.index t 1 = 0 :=
  (by decide +kernel : ∀ t : Fin grid0.N,
    win0_0.index t 0 = t.val ∧ win0_0.index t 1 = 0 ∧ win0_3.index t 0 = t.val ∧ win0_3.index t 1 = 0)

/-- The features and the weights are one block each, at block index zero. -/
theorem whole_index : ∀ t : Fin cfg0.N,
    win0_1.index t 0 = 0 ∧ win0_1.index t 1 = 0 ∧ win0_2.index t 0 = 0 ∧ win0_2.index t 1 = 0 :=
  (by decide +kernel : ∀ t : Fin grid0.N,
    win0_1.index t 0 = 0 ∧ win0_1.index t 1 = 0 ∧ win0_2.index t 0 = 0 ∧ win0_2.index t 1 = 0)

/-- How many rows of point `t`'s strip lie inside the arrays: 512, but 272 for the last; every column does. -/
theorem strip_rows : ∀ t : Fin cfg0.N,
    win0_0.xsize (grid0.coords t) 0 = min 512 (10000 - 512 * t.val) ∧ win0_0.xsize (grid0.coords t) 1 = 10000
    ∧ win0_3.xsize (grid0.coords t) 0 = min 512 (10000 - 512 * t.val) ∧ win0_3.xsize (grid0.coords t) 1 = 512 :=
  (by decide +kernel : ∀ t : Fin grid0.N,
    win0_0.xsize (grid0.coords t) 0 = min 512 (10000 - 512 * t.val) ∧ win0_0.xsize (grid0.coords t) 1 = 10000
    ∧ win0_3.xsize (grid0.coords t) 0 = min 512 (10000 - 512 * t.val) ∧ win0_3.xsize (grid0.coords t) 1 = 512)

/-! ## The staging buffers read at an entry -/

/-- The adjacency strip's buffer after the fetch at point `t`, on a row `p` inside the array: entry `(p, k)` is the
    adjacency matrix at row `512 t + p`, column `k` — whatever the buffer held past the array's end. -/
theorem strip_entry (c : Dev nD) (t : Fin cfg0.N) (d : win0_0.block.Idx → Elt Ideal .f32) (p : Fin 512) (k : Fin 10000)
    (hp : p.val < win0_0.xsize (grid0.coords t) 0) (i : S10000x10000.Idx)
    (hi0 : (i 0).val = 512 * t.val + p.val) (hi1 : (i 1).val = k.val) :
    win0_0.fill (grid0.coords t) d (iblk m c 0 t) (ix2 p k) = V m c main_arg1 i := by
  have hm : win0_0.moved (grid0.coords t) (ix2 p k) = true := (win0_0.moved_iff _ _).mpr fun a => by
    match a with
    | ⟨0, _⟩ => exact hp
    | ⟨1, _⟩ => show k.val < win0_0.xsize (grid0.coords t) 1; rw [(strip_rows t).2.1]; exact k.isLt
  unfold Window.fill
  rw [dif_pos hm]
  show V m c main_arg1 (((cfg0.win 0).blk t).view.emb _) = V m c main_arg1 i
  refine congrArg _ (funext fun a => Fin.ext ?_)
  match a with
  | ⟨0, _⟩ =>
    show win0_0.index t 0 * 512 + 1 * p.val = (i 0).val
    rw [(strip_index t).1, hi0]; omega
  | ⟨1, _⟩ =>
    show win0_0.index t 1 * 10000 + 1 * k.val = (i 1).val
    rw [(strip_index t).2.1, hi1]; omega

/-- The features' buffer holds the feature matrix. -/
theorem feat_entry (c : Dev nD) (t : Fin cfg0.N) (y : S10000x512.Idx) : iblk m c 1 t y = V m c main_arg0 y := by
  show V m c main_arg0 (((cfg0.win 1).blk t).view.emb y) = V m c main_arg0 y
  refine congrArg _ (funext fun a => Fin.ext ?_)
  match a with
  | ⟨0, _⟩ =>
    show win0_1.index t 0 * 10000 + 1 * (y 0).val = (y 0).val
    rw [(whole_index t).1]; omega
  | ⟨1, _⟩ =>
    show win0_1.index t 1 * 512 + 1 * (y 1).val = (y 1).val
    rw [(whole_index t).2.1]; omega

/-- The weights' buffer holds the weight matrix. -/
theorem wts_entry (c : Dev nD) (t : Fin cfg0.N) (y : S512x512.Idx) : iblk m c 2 t y = V m c main_arg2 y := by
  show V m c main_arg2 (((cfg0.win 2).blk t).view.emb y) = V m c main_arg2 y
  refine congrArg _ (funext fun a => Fin.ext ?_)
  match a with
  | ⟨0, _⟩ =>
    show win0_2.index t 0 * 512 + 1 * (y 0).val = (y 0).val
    rw [(whole_index t).2.2.1]; omega
  | ⟨1, _⟩ =>
    show win0_2.index t 1 * 512 + 1 * (y 1).val = (y 1).val
    rw [(whole_index t).2.2.2]; omega

/-! ## The stored block, on the rows inside the array -/

/-- What the body stores at point `t`, cut to the rows the write-back moves, is the result's block there of
    `(A · X) · W` — whatever filled the strip's buffer past the array's end. -/
theorem stored_block (c : Dev nD) (t : Fin cfg0.N) (d : win0_0.block.Idx → Elt Ideal .f32) :
    win0_3.cut (grid0.coords t)
        (k0_pay1 (F := Ideal) (win0_0.fill (grid0.coords t) d (iblk m c 0 t)) (iblk m c 1 t) (iblk m c 2 t))
      = (win0_3.blk t).view.read (Elt Ideal) (layerOut m c) := by
  funext j
  have hj0 : (j 0).val < win0_3.xsize (grid0.coords t) 0 := (j 0).isLt
  have hj1 : (j 1).val < win0_3.xsize (grid0.coords t) 1 := (j 1).isLt
  have hrows : win0_3.xsize (grid0.coords t) 0 = win0_0.xsize (grid0.coords t) 0 := by
    rw [(strip_rows t).1, (strip_rows t).2.2.1]
  have hp : (j 0).val < 512 := lt_of_lt_of_le hj0 (by rw [(strip_rows t).2.2.1]; exact min_le_left _ _)
  have hq : (j 1).val < 512 := by rw [(strip_rows t).2.2.2] at hj1; exact hj1
  show k0_pay1 (F := Ideal) _ _ _ (win0_3.xinj (grid0.coords t) j) = layerOut m c ((win0_3.blk t).view.emb j)
  have e : win0_3.xinj (grid0.coords t) j = ix2 (⟨(j 0).val, hp⟩ : Fin 512) (⟨(j 1).val, hq⟩ : Fin 512) :=
    funext fun a => by match a with | ⟨0, _⟩ => rfl | ⟨1, _⟩ => rfl
  rw [e, stored_entry]
  have hr0 : (((win0_3.blk t).view.emb j) 0).val = 512 * t.val + (j 0).val := by
    show win0_3.index t 0 * 512 + 1 * (j 0).val = _
    rw [(strip_index t).2.2.1]; omega
  have hr1 : (((win0_3.blk t).view.emb j) 1).val = (j 1).val := by
    show win0_3.index t 1 * 512 + 1 * (j 1).val = _
    rw [(strip_index t).2.2.2]; omega
  unfold layerOut stripFirst
  refine Finset.sum_congr rfl fun k' _ => ?_
  refine congrArg₂ (· * ·) (Finset.sum_congr rfl fun k _ => congrArg₂ (· * ·) ?_ ?_) ?_
  · exact strip_entry m c t d _ k (hrows ▸ hj0) _ hr0 rfl
  · exact feat_entry m c t _
  · rw [wts_entry]
    refine congrArg _ (funext fun a => Fin.ext ?_)
    match a with
    | ⟨0, _⟩ => rfl
    | ⟨1, _⟩ => exact hr1.symm

/-! ## What the staging buffers hold after the body -/

/-- After the body at point `t`: the strip's buffer holds the strip's rows inside the array, the features' and the
    weights' buffers the whole arrays, and the result's buffer — on the rows inside the array — the block of
    `(A · X) · W`; past the array's end both cut buffers are filled out with zero, which nothing reads.  The arrays are
    as the region finds them. -/
def layerData (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => win0_3.fill (grid0.coords t) (fun _ => (0 : EReal)) ((win0_3.blk t).view.read (Elt Ideal) (layerOut m c))
  Φ _ := Pipeline.ΦA spec0 c
  q _ := fullShare
  owed _ := 0

theorem arrays_eq (c : Dev nD) (w : Fin cfg0.W) : (layerData m 0 c).A w = V m c (Pipeline.arrRef spec0 w) := by
  dsimp only [layerData]

theorem after_adj (c : Dev nD) (t : Fin cfg0.N) :
    (layerData m 0 c).after 0 t = win0_0.fill (grid0.coords t) (fun _ => (0 : EReal)) (iblk m c 0 t) := by
  dsimp only [layerData]
theorem after_feat (c : Dev nD) (t : Fin cfg0.N) : (layerData m 0 c).after 1 t = iblk m c 1 t := by dsimp only [layerData]
theorem after_wts (c : Dev nD) (t : Fin cfg0.N) : (layerData m 0 c).after 2 t = iblk m c 2 t := by dsimp only [layerData]
theorem after_out (c : Dev nD) (t : Fin cfg0.N) :
    (layerData m 0 c).after 3 t
      = win0_3.fill (grid0.coords t) (fun _ => (0 : EReal)) ((win0_3.blk t).view.read (Elt Ideal) (layerOut m c)) := by
  dsimp only [layerData]

/-! ## What the body finds -/

/-- The strip is fetched at every point: its buffer holds the strip's rows inside the array and anything past them. -/
theorem found_adj (c : Dev nD) (t : Fin cfg0.N) (d) :
    (layerData m 0 c).before 0 t d = win0_0.fill (grid0.coords t) d (iblk m c 0 t) := by
  rw [(layerData m 0 c).before_fetched 0 t (fetch0_0 t)]
  unfold Dat.fetched Dat.blockOf iblk
  rw [arrays_eq]
/-- The features' buffer holds the feature matrix at every point, fetched there or not; -/
theorem found_feat (c : Dev nD) (t : Fin cfg0.N) (d) : (layerData m 0 c).before 1 t d = iblk m c 1 t :=
  before0_1_of m (layerData m 0 c) (arrays_eq m c 1) (after_feat m c) t d
/-- the weights' buffer the weight matrix. -/
theorem found_wts (c : Dev nD) (t : Fin cfg0.N) (d) : (layerData m 0 c).before 2 t d = iblk m c 2 t :=
  before0_2_of m (layerData m 0 c) (arrays_eq m c 2) (after_wts m c) t d

/-! ## The body obligation -/

/-- What the body is called with at point `t`, window by window, -/
def bodyPre (c : Dev nD) (t : Fin cfg0.N) : sProp 𝕄 :=
  iprop((layerData m 0 c).Φ t.castSucc ∗ (layerData m 0 c).owesAt () t.castSucc
    ∗ (∃ d, owns (c : Thread nD τ) (st0_0 t) fullShare ((layerData m 0 c).before 0 t d))
    ∗ (∃ d, owns (c : Thread nD τ) (st0_1 t) fullShare ((layerData m 0 c).before 1 t d))
    ∗ (∃ d, owns (c : Thread nD τ) (st0_2 t) fullShare ((layerData m 0 c).before 2 t d))
    ∗ (∃ d, owns (c : Thread nD τ) (st0_3 t) fullShare ((layerData m 0 c).before 3 t d)))

/-- and what it hands back: the two cut buffers stated on the rows inside the array only. -/
def bodyPost (c : Dev nD) (t : Fin cfg0.N) : sProp 𝕄 :=
  iprop((layerData m 0 c).Φ t.succ ∗ (layerData m 0 c).owesAt () t.succ
    ∗ (∃ d, owns (c : Thread nD τ) (st0_0 t) fullShare
        ((cfg0.win 0).fill (cfg0.grid.coords t) d ((cfg0.win 0).cut (cfg0.grid.coords t) ((layerData m 0 c).after 0 t))))
    ∗ owns (c : Thread nD τ) (st0_1 t) fullShare ((layerData m 0 c).after 1 t)
    ∗ owns (c : Thread nD τ) (st0_2 t) fullShare ((layerData m 0 c).after 2 t)
    ∗ (∃ d, owns (c : Thread nD τ) (st0_3 t) fullShare
        ((cfg0.win 3).fill (cfg0.grid.coords t) d ((cfg0.win 3).cut (cfg0.grid.coords t) ((layerData m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [found_adj, found_feat, found_wts]
  rw [show (layerData m 0 c).Φ t.succ = (layerData m 0 c).Φ t.castSucc from rfl,
    show (layerData m 0 c).owesAt () t.succ = (layerData m 0 c).owesAt () t.castSucc from rfl,
    after_adj, after_feat, after_wts, after_out]
  iintro ⟨HΦ, Ho, ⟨%d0, H0⟩, ⟨%d1, H1⟩, ⟨%d2, H2⟩, ⟨%d3, H3⟩⟩
  iapply (body_run (F := Ideal) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show (cfg0.win 0).cut (cfg0.grid.coords t) (win0_0.fill (grid0.coords t) (fun _ => (0 : EReal)) (iblk m c 0 t))
      = iblk m c 0 t from win0_0.cut_fill _ _ _]
    iexact H0
  isplitl [H1]; · iexact H1
  isplitl [H2]; · iexact H2
  iexists (k0_pay1 (F := Ideal) (win0_0.fill (grid0.coords t) d0 (iblk m c 0 t)) (iblk m c 1 t) (iblk m c 2 t))
  rw [show (cfg0.win 3).cut (cfg0.grid.coords t)
        (win0_3.fill (grid0.coords t) (fun _ => (0 : EReal)) ((win0_3.blk t).view.read (Elt Ideal) (layerOut m c)))
      = (win0_3.blk t).view.read (Elt Ideal) (layerOut m c) from win0_3.cut_fill _ _ _,
    ← stored_block m c t d0]
  rw [show (cfg0.win 3).fill (cfg0.grid.coords t)
        (k0_pay1 (F := Ideal) (win0_0.fill (grid0.coords t) d0 (iblk m c 0 t)) (iblk m c 1 t) (iblk m c 2 t))
        (win0_3.cut (grid0.coords t)
          (k0_pay1 (F := Ideal) (win0_0.fill (grid0.coords t) d0 (iblk m c 0 t)) (iblk m c 1 t) (iblk m c 2 t)))
      = k0_pay1 (F := Ideal) (win0_0.fill (grid0.coords t) d0 (iblk m c 0 t)) (iblk m c 1 t) (iblk m c 2 t)
      from win0_3.fill_cut _ _]
  iexact H3

theorem body_obligation (c : Dev nD) :
    BodyObligationLoose (layerData m 0 c) (defs₀ (F := Ideal)) Variants.none () Set.univ := fun t => by
  rw [bigSep_W0, bigSep_W0]
  exact sound_body m c t

/-! ## The run -/

set_option backward.isDefEq.respectTransparency.types false in
/-- Every weakly fair execution of @main terminates, with every array of the pipeline at what the write-backs leave. -/
theorem run_main : θ_run defs (onTc (τ := τ) (main (F := Ideal))) (s₀ m ρ) (Pipeline.FramePost cfgs (layerData m) 0 (V m)) :=
  Pipeline.θ_run_frame cfgs (layerData m) (0 : Fin 1) launch0 defs₀ Variants.none m ρ main
    (hbody := fun c => body_obligation m c)
    (hshare := fun c => (layerData m 0 c).share_full fun _ => rfl)
    (howed := fun _ _ => rfl) (V := V m) (hmain := hmain m Variants.none) (hA := arrays_eq m) (hΦ := fun _ _ => rfl)

/-! ## The result array after the run -/

/-- What point `t` writes back is the result's block there of `(A · X) · W`. -/
theorem written_back (c : Dev nD) (t : Fin cfg0.N) :
    (layerData m 0 c).flushed 3 t = ((cfg0.win 3).blk t).view.read (Elt Ideal) (layerOut m c) := by
  show (cfg0.win 3).cut (cfg0.grid.coords t) ((layerData m 0 c).after 3 t) = _
  rw [after_out]
  exact win0_3.cut_fill _ _ _

/-- An entry of the result array lies in point `t`'s cut block iff its row is among the strip's rows inside the array. -/
theorem mem_strip (t : Fin cfg0.N) (i : S10000x512.Idx) :
    i ∈ (win0_3.blk t).view.set ↔ 512 * t.val ≤ (i 0).val ∧ (i 0).val < 512 * t.val + min 512 (10000 - 512 * t.val) := by
  show i ∈ ((View.whole main_v0).slice (win0_3.rect t)).set ↔ _
  rw [View.set_slice_whole, Rect.mem_set_unit]
  have h1 : (i 1).val < 512 := (i 1).isLt
  refine ⟨fun h => ?_, fun h a => ?_⟩
  · have h0 := h 0
    change win0_3.index t 0 * 512 ≤ (i 0).val ∧ (i 0).val < win0_3.index t 0 * 512 + win0_3.xsize (grid0.coords t) 0 at h0
    rw [(strip_index t).2.2.1, (strip_rows t).2.2.1] at h0
    omega
  · match a with
    | ⟨0, _⟩ =>
      change win0_3.index t 0 * 512 ≤ (i 0).val ∧ (i 0).val < win0_3.index t 0 * 512 + win0_3.xsize (grid0.coords t) 0
      rw [(strip_index t).2.2.1, (strip_rows t).2.2.1]
      omega
    | ⟨1, _⟩ =>
      change win0_3.index t 1 * 512 ≤ (i 1).val ∧ (i 1).val < win0_3.index t 1 * 512 + win0_3.xsize (grid0.coords t) 1
      rw [(strip_index t).2.2.2, (strip_rows t).2.2.2]
      omega

/-- Row `r` of the result lies in the strip of point `r / 512`: the twenty cut strips cover the array. -/
theorem strips_cover (i : S10000x512.Idx) :
    ∃ t : Fin cfg0.N, (cfg0.win 3).flush t = true ∧ i ∈ ((cfg0.win 3).blk t).view.set := by
  have hi : (i 0).val < 10000 := (i 0).isLt
  refine ⟨⟨(i 0).val / 512, by rw [show cfg0.N = 20 from N_0]; omega⟩, flush0_3 _, ?_⟩
  rw [show ((cfg0.win 3).blk _).view.set = (win0_3.blk _).view.set from rfl, mem_strip]
  show 512 * ((i 0).val / 512) ≤ (i 0).val ∧ (i 0).val < 512 * ((i 0).val / 512) + min 512 (10000 - 512 * ((i 0).val / 512))
  omega

/-- After the run the result array holds `(A · X) · W`. -/
theorem result_eq (c : Dev nD) : (layerData m 0 c).arrAt 3 cfg0.N = layerOut m c :=
  (layerData m 0 c).arrAt_eq_of_cover 3 (layerOut m c) (fun t _ => written_back m c t) strips_cover

/-- The idealized kernel's run, read at the result and the arguments: the result array ends at `(A · X) · W` of the
    arguments, which end as they began. -/
theorem run_layer : θ_run defs (onTc (τ := τ) (main (F := Ideal))) ⟨m, fun _ => 0, ρ⟩ (fun r => ∀ c : Dev nD,
      r.2.mem ((c.tc : Thread nD τ).loc main_v0)
        = stripFirst (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (result_eq m c),
      ((h c).1 1).trans (((layerData m 0 c).arrAt_in 1 rfl _).trans ((arrays_eq m c 1).trans (V_main_arg0 m c))),
      ((h c).1 0).trans (((layerData m 0 c).arrAt_in 0 rfl _).trans ((arrays_eq m c 0).trans (V_main_arg1 m c))),
      ((h c).1 2).trans (((layerData m 0 c).arrAt_in 2 rfl _).trans ((arrays_eq m c 2).trans (V_main_arg2 m c)))⟩)
    (run_main m ρ)

end Cert.KernelIdeal.Hand

end
-- ==== Proof.ReferenceValue.lean ====
/-
  The reference's result, entry by entry: `A · (X · W)`.

  The reference first multiplies the features by the weights (the support matrix) and then the adjacency matrix by
  the support.  Read at an entry `(r, q)` over the extended reals, the outer product is the sum over the ten thousand
  nodes `k` of `A r k` times the support's entry `(k, q)`, itself the sum over the 512 features `k'` of
  `X k k' * W k' q`.
-/
import proofs.«143572_g10479720203009_week1_w2_262_18_alg».proof.Proof.Gen.ReferenceIdeal.Read
import proofs.«143572_g10479720203009_week1_w2_262_18_alg».proof.Proof.GraphConvLaw

noncomputable section

namespace Cert.ReferenceIdeal.RefValue

open Cert.ReferenceIdeal Cert.ReferenceIdeal.Read Cert.GraphConv Idealize.ShloMosaic Idealize.ShloMosaic.ValueIdx

/-- The reference's composed term is `A · (X · W)`. -/
theorem reference_eq (x0 : (⟨S10000x512, .f32⟩ : BufTy).Contents (Elt Ideal)) (x1 : (⟨S10000x10000, .f32⟩ : BufTy).Contents (Elt Ideal))
    (x2 : (⟨S512x512, .f32⟩ : BufTy).Contents (Elt Ideal)) :
    val_main_v1 (F := Ideal) x0 x1 x2 = supportFirst x1 x0 x2 := by
  funext i
  rw [val_main_v1_apply]
  unfold supportFirst
  refine Finset.sum_congr rfl fun k _ => ?_
  rw [val_main_v0_apply]
  have e1 : lidx_main_v1 i k = ix2 (i 0) k := funext fun a => Fin.ext (by match a with | ⟨0, _⟩ => rfl | ⟨1, _⟩ => rfl)
  have e2 : ∀ k' : Fin 512, lidx_main_v0 (ridx_main_v1 i k) k' = ix2 k k' := fun k' =>
    funext fun a => Fin.ext (by match a with | ⟨0, _⟩ => rfl | ⟨1, _⟩ => rfl)
  have e3 : ∀ k' : Fin 512, ridx_main_v0 (ridx_main_v1 i k) k' = ix2 k' (i 1) := fun k' =>
    funext fun a => Fin.ext (by match a with | ⟨0, _⟩ => rfl | ⟨1, _⟩ => rfl)
  simp only [e1, e2, e3]
  rfl

end Cert.ReferenceIdeal.RefValue

end
-- ==== Proof.FiniteEntries.lean ====
/-
  The precondition read back: every entry of the three argument arrays is a real number.

  The precondition compares the absolute value of each entry with `+∞`, takes the conjunction over each array and the
  conjunction of the three results, and asks for the answer `true`.  An extended real whose absolute value is below
  `+∞` is neither infinity, hence a real number.
-/
import proofs.«143572_g10479720203009_week1_w2_262_18_alg».proof.Pre_finite_inputs
import Idealize.ShloMosaic.PureOps.Ideal
import Idealize.ShloMosaic.Lib.ReduceAll
import Idealize.ShloMosaic.Lib.ValueIdx

noncomputable section

namespace Cert.Pre_finite_inputs.Hand

open Idealize.ShloMosaic Cert.Pre_finite_inputs

instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real with `max x (-x) < +∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry that passes the precondition's comparison with `+∞` is a real number. -/
theorem real_of_passes {s : Shape} (a : FVec Ideal s .f32) (hb : S_.BroadcastsInDim s (![] : Fin 0 → Fin s.rank)) (i : s.Idx)
    (e : cmpf .olt (Host.absf a) (broadcastInDim s ![] hb (constant S_ .f32 0x7F800000#32)) i = 1#1) :
    ∃ r : ℝ, a i = (r : EReal) := by
  apply real_of_abs_lt_top
  have e' : Ideal.cmp .olt (max (a i) (-(a i))) (Ideal.ofBits .f32 0x7F800000#32) = 1#1 := e
  rw [inf_word] at e'
  have e'' : BitVec.ofBool (decide (max (a i) (-(a i)) < (⊤ : EReal))) = 1#1 := e'
  have hd : decide (max (a i) (-(a i)) < (⊤ : EReal)) = true := by
    by_contra hne
    rw [Bool.not_eq_true] at hne
    rw [hne] at e''
    exact absurd e'' (by decide)
  exact of_decide_eq_true hd

variable [Facts]

/-- Under the precondition every entry of the features, the adjacency matrix and the weights is a real number. -/
theorem entries_real (a0 : FVec Ideal S10000x512 .f32) (a1 : FVec Ideal S10000x10000 .f32) (a2 : FVec Ideal S512x512 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_passes a0 _ i (Host.reduce_andi_all _ _ _ _ _ h0' i)
  · exact real_of_passes a1 _ i (Host.reduce_andi_all _ _ _ _ _ h1 i)
  · exact real_of_passes a2 _ i (Host.reduce_andi_all _ _ _ _ _ h2 i)

end Cert.Pre_finite_inputs.Hand

end
-- ==== Proof.lean ====
/-
  A graph-convolution layer `out = A · X · W` (adjacency 10000 x 10000, features 10000 x 512, weights 512 x 512): the
  kernel computes `(A · X) · W` in twenty strips of 512 rows, the last strip cut to the 272 rows inside the arrays; the
  reference computes `A · (X · W)`.

  The five claims:
  * the kernel as printed runs, faults nowhere and leaves its arguments unchanged (the body run once on whole staging
    buffers; the result's buffer described only as "some contents");
  * so does the idealized kernel, whose result array moreover ends at `(A · X) · W` on all ten thousand rows — row `p`
    of a strip's product depends on row `p` of the strip only, so what the staging buffer holds past the array's end
    never reaches a row the cut write-back moves;
  * so does the reference, whose result is `A · (X · W)`;
  * the idealization rewrote nothing;
  * the two results are equal: the arguments are finite by the precondition, and on real entries matrix
    multiplication is associative (distributivity and an exchange of two finite sums).
-/
import proofs.«143572_g10479720203009_week1_w2_262_18_alg».proof.Defs
import proofs.«143572_g10479720203009_week1_w2_262_18_alg».proof.Proof.Gen.Kernel
import proofs.«143572_g10479720203009_week1_w2_262_18_alg».proof.Proof.Gen.KernelIdeal
import proofs.«143572_g10479720203009_week1_w2_262_18_alg».proof.Proof.Gen.ReferenceIdeal
import proofs.«143572_g10479720203009_week1_w2_262_18_alg».proof.Proof.Gen.ReferenceIdeal.Run
import proofs.«143572_g10479720203009_week1_w2_262_18_alg».proof.Proof.Gen.ReferenceIdeal.Read
import proofs.«143572_g10479720203009_week1_w2_262_18_alg».proof.Proof.Gen.Pre_finite_inputs
import proofs.«143572_g10479720203009_week1_w2_262_18_alg».proof.Proof.KernelFrame
import proofs.«143572_g10479720203009_week1_w2_262_18_alg».proof.Proof.KernelIdealValue
import proofs.«143572_g10479720203009_week1_w2_262_18_alg».proof.Proof.ReferenceValue
import proofs.«143572_g10479720203009_week1_w2_262_18_alg».proof.Proof.FiniteEntries
import Idealize.ShloMosaic.Adequacy
import Idealize.ShloMosaic.Init

noncomputable section

namespace Cert.Proof

open Idealize.ShloMosaic Idealize.ShloMosaic.TcCoe Idealize.SL.Sem Cert.GraphConv

/-- The kernel as printed: it runs, and its arguments end unchanged. -/
theorem frame_kernel : Cert.frame_Kernel := fun m ρ _ => Cert.Kernel.Hand.frame m ρ

/-- The idealized kernel: its run to `(A · X) · W`, the result dropped. -/
theorem frame_ideal : Cert.frame_KernelIdeal := fun m ρ _ =>
  (θ_run Cert.KernelIdeal.defs _ _).mono (fun _ h c => (h c).2) (Cert.KernelIdeal.Hand.run_layer m ρ)

/-- The reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the idealized kernel ends at `(A · X) · W` and the reference at
    `A · (X · W)` of the same finite arguments: one array. -/
theorem algebraic : Cert.algebraic_KernelIdeal_ReferenceIdeal := by
  intro m ρ m' ρ' hpre hagree
  refine ⟨_, Cert.KernelIdeal.Hand.run_layer m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v1_eq,
    Cert.ReferenceIdeal.RefValue.reference_eq]
  obtain ⟨h0, h1, h2⟩ := Cert.Pre_finite_inputs.Hand.entries_real _ _ _ (hpre c)
  exact (stripFirst_eq_supportFirst _ _ _ h1 h0 h2).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
